-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg7 : FVec F S256 .f32) (main_arg13 : FVec F S256 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_cst_28 : FVec F S_ .f32 := constant S_ .f32 0x00000000#32
  let main_v74 : FVec F S256 .f32 := broadcastInDim S256 ![] bcast_S_S256 main_cst_28
  let main_v75 : IVec S256 1 := cmpf .oge main_arg7 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v73 main_v76
  let main_cst_30 : FVec F S_ .f32 := constant S_ .f32 0x00000000#32
  let main_v78 : FVec F S256 .f32 := broadcastInDim S256 ![] bcast_S_S256 main_cst_30
  let main_v79 : IVec S256 1 := cmpf .oge main_arg13 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v77 main_v80
  main_v81

def fn_part3 {F : FTy → Type} [FloatOps F] (main_arg7 : FVec F S256 .f32) (main_arg12 : FVec F S256 .f32) (main_arg13 : FVec F S256 .f32) (main_arg14 : FVec F S256x128 .f32) (main_arg15 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg7 main_arg13 main_arg15 main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x128 .f32) (main_arg15 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg7 main_arg12 main_arg13 main_arg14 main_arg15 main_v48 main_v49 main_v50

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x128 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x256 .f32) (main_arg1 : IVec S2x800000 32) (main_arg2 : FVec F S256x256 .f32) (main_arg3 : FVec F S256 .f32) (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x128 .f32) (main_arg15 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 128
  | .vmem => 19
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S256x256, .bf16⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S1x256, .f32⟩
  | .hbm, ⟨79, _⟩ => ⟨S256x256, .bf16⟩
  | .hbm, ⟨80, _⟩ => ⟨S50000x256, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x256, .f32⟩
  | .hbm, ⟨90, _⟩ => ⟨S850000x256, .f32⟩
  | .hbm, ⟨91, _⟩ => ⟨S850000x256, .f32⟩
  | .hbm, ⟨92, _⟩ => ⟨S_, .f32⟩
  | .hbm, ⟨93, _⟩ => ⟨S50000x256, .f32⟩
  | .hbm, ⟨94, _⟩ => ⟨S850000x1, .i32⟩
  | .hbm, ⟨95, _⟩ => ⟨S50000x256, .f32⟩
  | .hbm, ⟨96, _⟩ => ⟨S1x256, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S256, .f32⟩
  | .hbm, ⟨106, _⟩ => ⟨S1x256, .f32⟩
  | .hbm, ⟨107, _⟩ => ⟨S1x256, .f32⟩
  | .hbm, ⟨108, _⟩ => ⟨S256x128, .bf16⟩
  | .hbm, ⟨109, _⟩ => ⟨S50000x128, .f32⟩
  | .hbm, ⟨110, _⟩ => ⟨S_, .i32⟩
  | .hbm, ⟨111, _⟩ => ⟨S850000, .i32⟩
  | .hbm, ⟨112, _⟩ => ⟨S850000, .i1⟩
  | .hbm, ⟨113, _⟩ => ⟨S_, .i32⟩
  | .hbm, ⟨114, _⟩ => ⟨S850000, .i32⟩
  | .hbm, ⟨115, _⟩ => ⟨S850000, .i32⟩
  | .hbm, ⟨116, _⟩ => ⟨S850000, .i32⟩
  | .hbm, ⟨117, _⟩ => ⟨S850000x1, .i32⟩
  | .hbm, ⟨118, _⟩ => ⟨S850000x128, .f32⟩
  | .hbm, ⟨119, _⟩ => ⟨S850000x128, .f32⟩
  | .hbm, ⟨120, _⟩ => ⟨S850000x128, .f32⟩
  | .hbm, ⟨121, _⟩ => ⟨S_, .f32⟩
  | .hbm, ⟨122, _⟩ => ⟨S50000x128, .f32⟩
  | .hbm, ⟨123, _⟩ => ⟨S850000x1, .i32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S1x256, .f32⟩
  | .local _ .vmem, ⟨9, _⟩ => ⟨S256x256, .bf16⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S1x256, .f32⟩
  | .local _ .vmem, ⟨16, _⟩ => ⟨S256x128, .bf16⟩
  | .local _ .vmem, ⟨17, _⟩ => ⟨S5000x128, .f32⟩
  | .local _ .vmem, ⟨18, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_8 : Ref sig .tc := ⟨.hbm, 81, rfl⟩
abbrev main_v55 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_12 : Ref sig .tc := ⟨.hbm, 110, rfl⟩
abbrev main_v80 : Ref sig .tc := ⟨.hbm, 111, rfl⟩
abbrev main_v81 : Ref sig .tc := ⟨.hbm, 112, rfl⟩
abbrev main_c_13 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_14 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v69) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 141
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S256x128, .f32⟩
  | 15 => ⟨S128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S50000x256, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S256, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S50000x256, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x256, .f32⟩
  | 96 => ⟨S850000x256, .f32⟩
  | 97 => ⟨S850000x256, .f32⟩
  | 98 => ⟨S_, .f32⟩
  | 99 => ⟨S50000x256, .f32⟩
  | 100 => ⟨S850000x1, .i32⟩
  | 101 => ⟨S50000x256, .f32⟩
  | 102 => ⟨S1x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S256, .f32⟩
  | 110 => ⟨S256, .f32⟩
  | 111 => ⟨S256, .f32⟩
  | 112 => ⟨S256, .f32⟩
  | 113 => ⟨S1x256, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x256, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x128, .f32⟩
  | 5 => ⟨S850000x128, .f32⟩
  | 6 => ⟨S_, .f32⟩
  | 7 => ⟨S50000x128, .f32⟩
  | 8 => ⟨S850000x1, .i32⟩
  | 9 => ⟨S50000x128, .f32⟩
  | 10 => ⟨S1x128, .f32⟩
  | 11 => ⟨S50000x128, .f32⟩
  | 12 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call1_cst : Ref sig .tc := ⟨.hbm, 119, rfl⟩
abbrev main_call1_v0 : Ref sig .tc := ⟨.hbm, 120, rfl⟩
abbrev main_v87 : Ref sig .tc := ⟨.hbm, 121, rfl⟩
abbrev main_v88 : Ref sig .tc := ⟨.hbm, 122, rfl⟩
abbrev main_c_12 : Ref sig .tc := ⟨.hbm, 123, rfl⟩
abbrev main_v89 : Ref sig .tc := ⟨.hbm, 124, rfl⟩
abbrev main_v90 : Ref sig .tc := ⟨.hbm, 125, rfl⟩
abbrev main_c_13 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_14 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel program's run, with the result buffer named.

  The program is three kernel regions among four stretches of host operations.  Its generated frame
  proof walks the buffer contents through these seven segments (`Gen.W0` … `Gen.W7`) and states, of
  the final memory, only that the argument arrays are unchanged.  Here the same walk is stated once
  more with one further conjunct: the result buffer `main_v94` ends holding what the last boundary's
  contents `Gen.W7` hold there.  Every unscoped buffer of the final state is read against `W7`; the
  arguments are then traced back to the launch memory as before, and the result buffer is kept as it is.
-/
import proofs.«121795_j15281493639201_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last boundary's contents and the argument arrays end as launched. -/
theorem run_result : θ_run defs (onTc (τ := τ) (main (F := F))) ⟨m, fun _ => 0, ρ⟩ (fun r => ∀ c : Dev nD,
      r.2.mem ((c.tc : Thread nD τ).loc main_v94) = W7 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v94 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Hand

end
-- ==== Proof.KKeep.lean ====
/-
  What survives the program's seven segments untouched.

  The program alternates four stretches of host operations with three kernel regions.  A host operation writes its
  one result buffer and nothing else, and a region changes only its windows' arrays.  So a buffer that is none of a
  stretch's result buffers keeps its contents through that stretch, and a buffer that is no window array of a region
  keeps its contents through that region.  Chained: the edge lists, the edge weights and the argument arrays,
  once computed or launched, are still there at every later boundary where a host stretch or a region reads them.
-/
import proofs.«121795_j15281493639201_1_alg».proof.Proof.Gen.KernelIdeal.Frame

set_option maxRecDepth 16384

noncomputable section

namespace Cert.Gcn.KKeep

open Cert.KernelIdeal Cert.KernelIdeal.Gen
open Idealize.ShloMosaic Idealize.ShloMosaic.TcCoe Idealize.SL.Sem

variable {F : FTy → Type} [FloatOps F]

/-- The buffers the host operations of stretch 0 write: one result buffer each. -/
abbrev written0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_v28]
theorem hostOps0_writes : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)
/-- A buffer stretch 0 does not write keeps its contents through it. -/
theorem keepH0 (V0 : Valuation τ sig (Elt F)) (r : Ref sig .tc) (h : r ∉ written0) :
    StableHlo.after hostOps0 V0 (Proc.devRef .tc r) = V0 (Proc.devRef .tc r) :=
  StableHlo.after_of_writes_sub hostOps0 _ hostOps0_writes h

/-- The buffers the host operations of stretch 1 write: one result buffer each. -/
abbrev written1 : List (Ref sig .tc) := [main_c_4, main_v30, main_v31, main_c_5, main_v32, main_v33, main_v34, main_v35, main_v36, main_v37, main_v38, main_cst_6, main_v39, main_v40, main_v41, main_v42, main_v43, main_v44, main_cst_7, main_v45, main_v46, main_v47, main_v48, main_v49, main_v50, main_v51, main_v52, main_v53]
theorem hostOps1_writes : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)
/-- A buffer stretch 1 does not write keeps its contents through it. -/
theorem keepH1 (V0 : Valuation τ sig (Elt F)) (r : Ref sig .tc) (h : r ∉ written1) :
    StableHlo.after hostOps1 V0 (Proc.devRef .tc r) = V0 (Proc.devRef .tc r) :=
  StableHlo.after_of_writes_sub hostOps1 _ hostOps1_writes h

/-- The buffers the host operations of stretch 2 write: one result buffer each. -/
abbrev written2 : List (Ref sig .tc) := [main_c_8, main_v55, main_v56, main_c_9, main_v57, main_v58, main_v59, main_v60, main_v61, main_v62, main_v63, main_cst_10, main_v64, main_v65, main_v66, main_v67, main_v68, main_v69, main_cst_11, main_v70, main_v71, main_v72, main_v73, main_v74, main_v75, main_v76, main_v77, main_v78]
theorem hostOps2_writes : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)
/-- A buffer stretch 2 does not write keeps its contents through it. -/
theorem keepH2 (V0 : Valuation τ sig (Elt F)) (r : Ref sig .tc) (h : r ∉ written2) :
    StableHlo.after hostOps2 V0 (Proc.devRef .tc r) = V0 (Proc.devRef .tc r) :=
  StableHlo.after_of_writes_sub hostOps2 _ hostOps2_writes h

/-- The buffers the host operations of stretch 3 write: one result buffer each. -/
abbrev written3 : List (Ref sig .tc) := [main_c_12, main_v80, main_v81, main_c_13, main_v82, main_v83, main_v84, main_v85, main_v86, main_v87, main_v88, main_cst_14, main_v89, main_v90, main_v91, main_v92, main_v93, main_v94]
theorem hostOps3_writes : (hostOps3 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)
/-- A buffer stretch 3 does not write keeps its contents through it. -/
theorem keepH3 (V0 : Valuation τ sig (Elt F)) (r : Ref sig .tc) (h : r ∉ written3) :
    StableHlo.after hostOps3 V0 (Proc.devRef .tc r) = V0 (Proc.devRef .tc r) :=
  StableHlo.after_of_writes_sub hostOps3 _ hostOps3_writes h

variable (m : (ℓ : Loc nD τ sig) → Buf (Elt F) ℓ) (ρ : Dev nD → PrngReg) (c : Dev nD)

/-- An argument or any buffer the first stretch does not write holds its launch contents when region 0 is entered. -/
theorem at1 (r : Ref sig .tc) (h : r ∉ written0) :
    W1 m ρ c (Proc.devRef .tc r) = m ((c.tc : Thread nD τ).loc r) :=
  keepH0 (W0 m ρ c) r h

/-- Through region 0. -/
theorem at2 (r : Ref sig .tc) (h0 : ∀ w, Pipeline.arrRef spec0 w ≠ r) :
    W2 m ρ c (Proc.devRef .tc r) = W1 m ρ c (Proc.devRef .tc r) :=
  W2_of_ne m ρ c r h0

/-- Through region 0 and the second stretch. -/
theorem at3 (r : Ref sig .tc) (h0 : ∀ w, Pipeline.arrRef spec0 w ≠ r) (h1 : r ∉ written1) :
    W3 m ρ c (Proc.devRef .tc r) = W1 m ρ c (Proc.devRef .tc r) :=
  (keepH1 (W2 m ρ c) r h1).trans (at2 m ρ c r h0)

/-- Through region 0, the second stretch and region 1. -/
theorem at4 (r : Ref sig .tc) (h0 : ∀ w, Pipeline.arrRef spec0 w ≠ r) (h1 : r ∉ written1) (h2 : ∀ w, Pipeline.arrRef spec1 w ≠ r) :
    W4 m ρ c (Proc.devRef .tc r) = W1 m ρ c (Proc.devRef .tc r) :=
  (W4_of_ne m ρ c r h2).trans (at3 m ρ c r h0 h1)

/-- Through everything up to the third stretch's end. -/
theorem at5 (r : Ref sig .tc) (h0 : ∀ w, Pipeline.arrRef spec0 w ≠ r) (h1 : r ∉ written1) (h2 : ∀ w, Pipeline.arrRef spec1 w ≠ r)
    (h3 : r ∉ written2) :
    W5 m ρ c (Proc.devRef .tc r) = W1 m ρ c (Proc.devRef .tc r) :=
  (keepH2 (W4 m ρ c) r h3).trans (at4 m ρ c r h0 h1 h2)

/-- Through everything up to region 2's exit. -/
theorem at6 (r : Ref sig .tc) (h0 : ∀ w, Pipeline.arrRef spec0 w ≠ r) (h1 : r ∉ written1) (h2 : ∀ w, Pipeline.arrRef spec1 w ≠ r)
    (h3 : r ∉ written2) (h4 : ∀ w, Pipeline.arrRef spec2 w ≠ r) :
    W6 m ρ c (Proc.devRef .tc r) = W1 m ρ c (Proc.devRef .tc r) :=
  (W6_of_ne m ρ c r h4).trans (at5 m ρ c r h0 h1 h2 h3)

end Cert.Gcn.KKeep

end
-- ==== Proof.KMatmul.lean ====
/-
  The kernels' matrix product, read at an index.

  At the exact-real instance a `tpu.matmul` into a zero accumulator is the textbook contraction.  For the
  two shapes the kernels use — a block of 5000 rows times a 256 × 256 or a 256 × 128 weight matrix — the
  element at row `p`, column `q` is the sum over `k` of the left operand at `(p, k)` times the right operand
  at `(k, q)`: the contracted index space is re-indexed by `Fin 256`, and the operands' index maps are read
  off the dimension record (axis 0 of the left and axis 1 of the right are kept, axis 1 of the left and axis 0
  of the right are contracted).
-/
import proofs.«121795_j15281493639201_1_alg».proof.Proof.Gen.KernelIdeal
import Idealize.ShloMosaic.Lib.ValueIdx
import Idealize.ShloMosaic.PureOps.Ideal.Laws

noncomputable section

namespace Cert.Gcn.KMatmul

open Cert.KernelIdeal Cert.KernelIdeal.Gen Idealize.ShloMosaic Idealize.ShloMosaic.ValueIdx

/-! ## 5000 × 256 times 256 × 256 -/

theorem lhsA_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhsA_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhsA_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhsA_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Row `p`, column `q` of a 5000-row block times a 256 × 256 matrix, from a zero accumulator. -/
theorem matmulA_apply {φ₁ φ₂ : FTy} (l : FVec Ideal S5000x256 φ₁) (r : FVec Ideal S256x256 φ₂) (p : Fin 5000) (q : Fin 256) :
    matmul dot_S5000x256_S256x256_S5000x256_1_0_0_1_n_n none l r (constant S5000x256 .f32 0x00000000#32) (ix2 p q)
      = ∑ k : Fin 256, l (ix2 p k) * r (ix2 k q) := by
  show FloatOps.matmul dot_S5000x256_S256x256_S5000x256_1_0_0_1_n_n none l r (constant S5000x256 .f32 0x00000000#32) (ix2 p q) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ## 5000 × 256 times 256 × 128 -/

theorem lhsB_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsB_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhsB_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhsB_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row `p`, column `q` of a 5000-row block times a 256 × 128 matrix, from a zero accumulator. -/
theorem matmulB_apply {φ₁ φ₂ : FTy} (l : FVec Ideal S5000x256 φ₁) (r : FVec Ideal S256x128 φ₂) (p : Fin 5000) (q : Fin 128) :
    matmul dot_S5000x256_S256x128_S5000x128_1_0_0_1_n_n none l r (constant S5000x128 .f32 0x00000000#32) (ix2 p q)
      = ∑ k : Fin 256, l (ix2 p k) * r (ix2 k q) := by
  show FloatOps.matmul dot_S5000x256_S256x128_S5000x128_1_0_0_1_n_n none l r (constant S5000x128 .f32 0x00000000#32) (ix2 p q) = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

end Cert.Gcn.KMatmul

end
-- ==== Proof.KPay.lean ====
/-
  What each kernel body stores, read at an index.

  The first body stores the product of its block of rows with the weight matrix.  The other two first pass
  the block through the folded batch-norm and the rectifier — `max (x * scale + shift) 0`, the scale and the
  shift one row broadcast over the block — and store the product of THAT with the weight matrix.  Changes of
  float format and same-shape casts are the identity at the exact-real instance.
-/
import proofs.«121795_j15281493639201_1_alg».proof.Proof.Gen.KernelIdeal.Skeleton
import proofs.«121795_j15281493639201_1_alg».proof.Proof.KMatmul
import Idealize.ShloMosaic.Lib.Pipeline.Value
import Idealize.ShloMosaic.Lib.ValueLayout

noncomputable section

namespace Cert.Gcn.KPay

open Cert.KernelIdeal Cert.KernelIdeal.Gen Idealize.ShloMosaic Idealize.ShloMosaic.ValueIdx

/-- The plain product: row `p` of the block against column `q` of the weights. -/
theorem pay0_apply (x0 : Vec Ideal S5000x256 .f32) (x1 : Vec Ideal S256x256 .bf16) (p : Fin 5000) (q : Fin 256) :
    k0_pay1 x0 x1 (ix2 p q) = ∑ k : Fin 256, x0 (ix2 p k) * x1 (ix2 k q) := by
  unfold k0_pay1
  refine (KMatmul.matmulA_apply _ _ p q).trans (Finset.sum_congr rfl fun k _ => ?_)
  rw [shapeCast_self]
  rfl

/-- One element of the rectified affine image of a block: `max (x * scale + shift) 0`, the scale and the shift read
    from their one row. -/
theorem act_apply (x0 : Vec Ideal S5000x256 .f32) (x1 x2 : Vec Ideal S1x256 .f32) (p : Fin 5000) (k : Fin 256)
    (h0 : S5000x256.ShapeCasts S5000x256) (h1 : S1x256.ShapeCasts S1x256) (hb : S1x256.Broadcasts S5000x256) (hlt : FTy.bf16.bits < FTy.f32.bits) :
    (truncf .bf16 (maximumf (addf (mulf (shapeCast S5000x256 x0 h0) (broadcastTo S5000x256 (shapeCast S1x256 x1 h1) hb))
        (broadcastTo S5000x256 (shapeCast S1x256 x2 h1) hb)) (broadcast S5000x256 (Scalar.ofBits (F := Ideal) .f32 0x00000000#32))) hlt : FVec Ideal S5000x256 .bf16) (ix2 p k)
      = max (x0 (ix2 p k) * x1 (ix2 (0 : Fin 1) k) + x2 (ix2 (0 : Fin 1) k)) 0 := by
  rw [shapeCast_self, shapeCast_self, shapeCast_self]
  show max (x0 (ix2 p k) * broadcastTo S5000x256 x1 hb (ix2 p k) + broadcastTo S5000x256 x2 hb (ix2 p k)) (Ideal.ofBits .f32 0x00000000#32) = _
  rw [broadcastTo_1b_ab_apply, broadcastTo_1b_ab_apply, Ideal.ofBits_zero_f32]

/-- The second body: the rectified affine image of the block against column `q` of the 256 × 256 weights. -/
theorem pay1_apply (x0 : Vec Ideal S5000x256 .f32) (x1 x2 : Vec Ideal S1x256 .f32) (x3 : Vec Ideal S256x256 .bf16) (p : Fin 5000) (q : Fin 256) :
    k1_pay1 x0 x1 x2 x3 (ix2 p q)
      = ∑ k : Fin 256, max (x0 (ix2 p k) * x1 (ix2 (0 : Fin 1) k) + x2 (ix2 (0 : Fin 1) k)) 0 * x3 (ix2 k q) := by
  unfold k1_pay1
  refine (KMatmul.matmulA_apply _ _ p q).trans (Finset.sum_congr rfl fun k _ => ?_)
  rw [act_apply, shapeCast_self]

/-- The third body: the same against column `q` of the 256 × 128 weights. -/
theorem pay2_apply (x0 : Vec Ideal S5000x256 .f32) (x1 x2 : Vec Ideal S1x256 .f32) (x3 : Vec Ideal S256x128 .bf16) (p : Fin 5000) (q : Fin 128) :
    k2_pay1 x0 x1 x2 x3 (ix2 p q)
      = ∑ k : Fin 256, max (x0 (ix2 p k) * x1 (ix2 (0 : Fin 1) k) + x2 (ix2 (0 : Fin 1) k)) 0 * x3 (ix2 k q) := by
  unfold k2_pay1
  refine (KMatmul.matmulB_apply _ _ p q).trans (Finset.sum_congr rfl fun k _ => ?_)
  rw [act_apply, shapeCast_self]

end Cert.Gcn.KPay

end
-- ==== Proof.KReg2.lean ====
/-
  Region 2 — batch-norm, rectifier and tiled product — as one whole-array function.

  The grid has ten points; point `t` reads rows `5000 t … 5000 t + 4999` of the activation array (all 256
  columns), the one-row scale and shift arrays and the whole weight matrix, and writes back
  `max (x * scale + shift) 0` times the weights as rows `5000 t … 5000 t + 4999` of the output.  An output element
  depends on its own row of the block only, so what point `t` writes is block `t` of ONE function of the whole
  arrays, and the ten blocks tile the output (row `r` lies in block `r / 5000`): the output array ends holding
  that function.

  The region is stated at ANY contents `V` of the buffers on entry, as the generated frame states it.
-/
import proofs.«121795_j15281493639201_1_alg».proof.Proof.Gen.KernelIdeal.Frame
import proofs.«121795_j15281493639201_1_alg».proof.Proof.KPay
import Idealize.ShloMosaic.Lib.Pipeline.Value

set_option maxRecDepth 16384

noncomputable section

namespace Cert.Gcn.KReg2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rectified affine image of a 50000 × 256 array (scale and shift one row each) times a 256 × 128 matrix,
    index by index. -/
def actProd (A : S50000x256.Idx → EReal) (sc sh : S1x256.Idx → EReal) (W : S256x128.Idx → EReal) : S50000x128.Idx → EReal :=
  fun i => ∑ k : Fin 256,
    max (A (ix2 (n0 := 50000) (n1 := 256) ⟨(i 0).val, (i 0).isLt⟩ k) * sc (ix2 (0 : Fin 1) k) + sh (ix2 (0 : Fin 1) k)) 0
      * W (ix2 (n0 := 256) (n1 := 128) k ⟨(i 1).val, (i 1).isLt⟩)

/-- The printed index maps over the grid: the activation window's row block moves with the output's, every other
    block index is zero, and the output's row block index is at most 9. -/
theorem idx_facts : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

/-- Every row block of the output is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

set_option maxHeartbeats 2000000 in
/-- What point `t` writes back is block `t` of the whole-array function of the arrays as the region finds them. -/
theorem flushed_eq (c : Dev nD) (t : Fin cfg2.N) :
    (dat2 V c).flushed 4 t = ((cfg2.win 4).blk t).view.read (Elt Ideal)
      (actProd (V c main_v69 : S50000x256.Idx → EReal) (V c main_v76 : S1x256.Idx → EReal) (V c main_v77 : S1x256.Idx → EReal) (V c main_v78 : S256x128.Idx → EReal)) := by
  show (cfg2.win 4).cut (grid2.coords t) ((dat2 V c).after 4 t) = _
  rw [after2_4]
  unfold out2_4
  rw [View.canon_unit_zero hz]
  simp only [View.ld_unit_zero (S := S5000x256) hz, View.ld_unit_zero (S := S1x256) hz, View.ld_unit_zero (S := S256x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (ix2 p q)
    = actProd (V c main_v69 : S50000x256.Idx → EReal) (V c main_v76 : S1x256.Idx → EReal) (V c main_v77 : S1x256.Idx → EReal) (V c main_v78 : S256x128.Idx → EReal) (((cfg2.win 4).blk t).view.emb (ix2 p q))
  refine (KPay.pay2_apply _ _ _ _ p q).trans ?_
  unfold actProd
  refine Finset.sum_congr rfl fun k _ => ?_
  have hx : iblk2 V c 0 t (ix2 p k) = (V c main_v69 : S50000x256.Idx → EReal)
      (ix2 (n0 := 50000) (n1 := 256) ⟨((((cfg2.win 4).blk t).view.emb (ix2 p q)) 0).val, ((((cfg2.win 4).blk t).view.emb (ix2 p q)) 0).isLt⟩ k) := by
    show V c main_v69 (((cfg2.win 0).blk t).view.emb (ix2 p k)) = V c main_v69 _
    refine congrArg _ (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 256 + 1 * k.val = k.val; omega
  have hsc : iblk2 V c 1 t (ix2 (0 : Fin 1) k) = (V c main_v76 : S1x256.Idx → EReal) (ix2 (0 : Fin 1) k) := by
    show V c main_v76 (((cfg2.win 1).blk t).view.emb (ix2 (0 : Fin 1) k)) = V c main_v76 _
    refine congrArg _ (funext fun a => Fin.ext ?_)
    match a with
    | ⟨0, _⟩ => show win2_1.index t (0 : Fin 2) * 1 + 1 * 0 = 0; omega
    | ⟨1, _⟩ => show win2_1.index t (1 : Fin 2) * 256 + 1 * k.val = k.val; omega
  have hsh : iblk2 V c 2 t (ix2 (0 : Fin 1) k) = (V c main_v77 : S1x256.Idx → EReal) (ix2 (0 : Fin 1) k) := by
    show V c main_v77 (((cfg2.win 2).blk t).view.emb (ix2 (0 : Fin 1) k)) = V c main_v77 _
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * k.val = k.val; omega
  have hw : iblk2 V c 3 t (ix2 k q) = (V c main_v78 : S256x128.Idx → EReal)
      (ix2 (n0 := 256) (n1 := 128) k ⟨((((cfg2.win 4).blk t).view.emb (ix2 p q)) 1).val, ((((cfg2.win 4).blk t).view.emb (ix2 p q)) 1).isLt⟩) := by
    show V c main_v78 (((cfg2.win 3).blk t).view.emb (ix2 k q)) = V c main_v78 _
    refine congrArg _ (funext fun a => Fin.ext ?_)
    match a with
    | ⟨0, _⟩ => show win2_3.index t (0 : Fin 2) * 256 + 1 * k.val = k.val; omega
    | ⟨1, _⟩ => show win2_3.index t (1 : Fin 2) * 128 + 1 * q.val = win2_4.index t (1 : Fin 2) * 128 + 1 * q.val; omega
  rw [hx, hsc, hsh, hw]

/-- An index of the output is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v79).slice (win2_4.rect t)).set ↔ _
  rw [View.set_slice_whole, Rect.mem_set_unit]
  exact Iff.rfl

/-- The ten row blocks cover the output. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region: the whole-array function of the arrays as the region finds them. -/
theorem final (c : Dev nD) : (dat2 V c).arrAt 4 cfg2.N
    = actProd (V c main_v69 : S50000x256.Idx → EReal) (V c main_v76 : S1x256.Idx → EReal) (V c main_v77 : S1x256.Idx → EReal) (V c main_v78 : S256x128.Idx → EReal) :=
  (dat2 V c).arrAt_eq_of_cover 4 _ (fun t _ => flushed_eq V c t) (cover)

end Cert.Gcn.KReg2

end
-- ==== Proof.KStage0.lean ====
/-
  The shared quantities of the graph, and the arguments, at every boundary where they are read.

  Before the first kernel region the host computes, from the edge list alone, the source and destination lists with the
  self loops appended and the per-edge weight `deg(src)^(-1/2) * deg(dst)^(-1/2)`; the reference computes the same
  three arrays by the same operations, so each is the reference's own stage term of the edge list.  The first
  weight matrix is handed to region 0 after a change of float format, the identity at the exact-real instance.
  None of these buffers, and no argument, is written again: they hold the same contents at the entry of every later
  host stretch (the facts `e2_…`, `e4_…`, `e6_…` below, one per buffer a stretch reads).
-/
import proofs.«121795_j15281493639201_1_alg».proof.Proof.Gen.KernelIdeal.Frame
import proofs.«121795_j15281493639201_1_alg».proof.Proof.Gen.ReferenceIdeal.Read
import proofs.«121795_j15281493639201_1_alg».proof.Proof.KKeep

set_option maxRecDepth 16384

noncomputable section

namespace Cert.Gcn.KStage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## At region 0's entry -/

set_option maxHeartbeats 4000000 in
/-- The source list with the self loops appended. -/
theorem w1_v3 : W1 m ρ c (Proc.devRef .tc main_v3) = val_main_v3 (F := Ideal) (m ((c.tc : Thread nD τ).loc main_arg1)) := by
  show StableHlo.after hostOps0 (W0 m ρ c) (Proc.devRef .tc main_v3) = _
  after_results_simp
  rfl

set_option maxHeartbeats 4000000 in
/-- The destination list with the self loops appended. -/
theorem w1_v6 : W1 m ρ c (Proc.devRef .tc main_v6) = val_main_v6 (F := Ideal) (m ((c.tc : Thread nD τ).loc main_arg1)) := by
  show StableHlo.after hostOps0 (W0 m ρ c) (Proc.devRef .tc main_v6) = _
  after_results_simp
  rfl

set_option maxHeartbeats 4000000 in
/-- The per-edge weight, as a column. -/
theorem w1_v27 : W1 m ρ c (Proc.devRef .tc main_v27) = val_main_v27 (F := Ideal) (m ((c.tc : Thread nD τ).loc main_arg1)) := by
  show StableHlo.after hostOps0 (W0 m ρ c) (Proc.devRef .tc main_v27) = _
  after_results_simp
  rfl

set_option maxHeartbeats 4000000 in
/-- The first weight matrix after its change of format. -/
theorem w1_v28 : W1 m ρ c (Proc.devRef .tc main_v28)
    = (truncf .bf16 ((m ((c.tc : Thread nD τ).loc main_arg2)) : FVec Ideal S256x256 .f32) Facts₀.bitsLt_bf16_f32 : FVec Ideal S256x256 .bf16) := by
  show StableHlo.after hostOps0 (W0 m ρ c) (Proc.devRef .tc main_v28) = _
  after_results_simp

/-- The node features, as launched. -/
theorem w1_arg0 : W1 m ρ c (Proc.devRef .tc main_arg0) = (m ((c.tc : Thread nD τ).loc main_arg0)) := KKeep.at1 m ρ c main_arg0 (by decide)

/-! ## At the second host stretch's entry (region 0's exit) -/

theorem e2_v3 : W2 m ρ c (Proc.devRef .tc main_v3) = val_main_v3 (F := Ideal) (m ((c.tc : Thread nD τ).loc main_arg1)) :=
  (KKeep.at2 m ρ c main_v3 (by decide)).trans (w1_v3 m ρ c)
theorem e2_v6 : W2 m ρ c (Proc.devRef .tc main_v6) = val_main_v6 (F := Ideal) (m ((c.tc : Thread nD τ).loc main_arg1)) :=
  (KKeep.at2 m ρ c main_v6 (by decide)).trans (w1_v6 m ρ c)
theorem e2_v27 : W2 m ρ c (Proc.devRef .tc main_v27) = val_main_v27 (F := Ideal) (m ((c.tc : Thread nD τ).loc main_arg1)) :=
  (KKeep.at2 m ρ c main_v27 (by decide)).trans (w1_v27 m ρ c)
theorem e2_arg3 : W2 m ρ c (Proc.devRef .tc main_arg3) = (m ((c.tc : Thread nD τ).loc main_arg3)) :=
  (KKeep.at2 m ρ c main_arg3 (by decide)).trans (KKeep.at1 m ρ c main_arg3 (by decide))
theorem e2_arg4 : W2 m ρ c (Proc.devRef .tc main_arg4) = (m ((c.tc : Thread nD τ).loc main_arg4)) :=
  (KKeep.at2 m ρ c main_arg4 (by decide)).trans (KKeep.at1 m ρ c main_arg4 (by decide))
theorem e2_arg5 : W2 m ρ c (Proc.devRef .tc main_arg5) = (m ((c.tc : Thread nD τ).loc main_arg5)) :=
  (KKeep.at2 m ρ c main_arg5 (by decide)).trans (KKeep.at1 m ρ c main_arg5 (by decide))
theorem e2_arg6 : W2 m ρ c (Proc.devRef .tc main_arg6) = (m ((c.tc : Thread nD τ).loc main_arg6)) :=
  (KKeep.at2 m ρ c main_arg6 (by decide)).trans (KKeep.at1 m ρ c main_arg6 (by decide))
theorem e2_arg7 : W2 m ρ c (Proc.devRef .tc main_arg7) = (m ((c.tc : Thread nD τ).loc main_arg7)) :=
  (KKeep.at2 m ρ c main_arg7 (by decide)).trans (KKeep.at1 m ρ c main_arg7 (by decide))
theorem e2_arg8 : W2 m ρ c (Proc.devRef .tc main_arg8) = (m ((c.tc : Thread nD τ).loc main_arg8)) :=
  (KKeep.at2 m ρ c main_arg8 (by decide)).trans (KKeep.at1 m ρ c main_arg8 (by decide))

/-! ## At the third host stretch's entry (region 1's exit) -/

theorem e4_v3 : W4 m ρ c (Proc.devRef .tc main_v3) = val_main_v3 (F := Ideal) (m ((c.tc : Thread nD τ).loc main_arg1)) :=
  (KKeep.at4 m ρ c main_v3 (by decide) (by decide) (by decide)).trans (w1_v3 m ρ c)
theorem e4_v6 : W4 m ρ c (Proc.devRef .tc main_v6) = val_main_v6 (F := Ideal) (m ((c.tc : Thread nD τ).loc main_arg1)) :=
  (KKeep.at4 m ρ c main_v6 (by decide) (by decide) (by decide)).trans (w1_v6 m ρ c)
theorem e4_v27 : W4 m ρ c (Proc.devRef .tc main_v27) = val_main_v27 (F := Ideal) (m ((c.tc : Thread nD τ).loc main_arg1)) :=
  (KKeep.at4 m ρ c main_v27 (by decide) (by decide) (by decide)).trans (w1_v27 m ρ c)
theorem e4_arg9 : W4 m ρ c (Proc.devRef .tc main_arg9) = (m ((c.tc : Thread nD τ).loc main_arg9)) :=
  (KKeep.at4 m ρ c main_arg9 (by decide) (by decide) (by decide)).trans (KKeep.at1 m ρ c main_arg9 (by decide))
theorem e4_arg10 : W4 m ρ c (Proc.devRef .tc main_arg10) = (m ((c.tc : Thread nD τ).loc main_arg10)) :=
  (KKeep.at4 m ρ c main_arg10 (by decide) (by decide) (by decide)).trans (KKeep.at1 m ρ c main_arg10 (by decide))
theorem e4_arg11 : W4 m ρ c (Proc.devRef .tc main_arg11) = (m ((c.tc : Thread nD τ).loc main_arg11)) :=
  (KKeep.at4 m ρ c main_arg11 (by decide) (by decide) (by decide)).trans (KKeep.at1 m ρ c main_arg11 (by decide))
theorem e4_arg12 : W4 m ρ c (Proc.devRef .tc main_arg12) = (m ((c.tc : Thread nD τ).loc main_arg12)) :=
  (KKeep.at4 m ρ c main_arg12 (by decide) (by decide) (by decide)).trans (KKeep.at1 m ρ c main_arg12 (by decide))
theorem e4_arg13 : W4 m ρ c (Proc.devRef .tc main_arg13) = (m ((c.tc : Thread nD τ).loc main_arg13)) :=
  (KKeep.at4 m ρ c main_arg13 (by decide) (by decide) (by decide)).trans (KKeep.at1 m ρ c main_arg13 (by decide))
theorem e4_arg14 : W4 m ρ c (Proc.devRef .tc main_arg14) = (m ((c.tc : Thread nD τ).loc main_arg14)) :=
  (KKeep.at4 m ρ c main_arg14 (by decide) (by decide) (by decide)).trans (KKeep.at1 m ρ c main_arg14 (by decide))

/-! ## At the last host stretch's entry (region 2's exit) -/

theorem e6_v3 : W6 m ρ c (Proc.devRef .tc main_v3) = val_main_v3 (F := Ideal) (m ((c.tc : Thread nD τ).loc main_arg1)) :=
  (KKeep.at6 m ρ c main_v3 (by decide) (by decide) (by decide) (by decide) (by decide)).trans (w1_v3 m ρ c)
theorem e6_v6 : W6 m ρ c (Proc.devRef .tc main_v6) = val_main_v6 (F := Ideal) (m ((c.tc : Thread nD τ).loc main_arg1)) :=
  (KKeep.at6 m ρ c main_v6 (by decide) (by decide) (by decide) (by decide) (by decide)).trans (w1_v6 m ρ c)
theorem e6_v27 : W6 m ρ c (Proc.devRef .tc main_v27) = val_main_v27 (F := Ideal) (m ((c.tc : Thread nD τ).loc main_arg1)) :=
  (KKeep.at6 m ρ c main_v27 (by decide) (by decide) (by decide) (by decide) (by decide)).trans (w1_v27 m ρ c)
theorem e6_arg15 : W6 m ρ c (Proc.devRef .tc main_arg15) = (m ((c.tc : Thread nD τ).loc main_arg15)) :=
  (KKeep.at6 m ρ c main_arg15 (by decide) (by decide) (by decide) (by decide) (by decide)).trans (KKeep.at1 m ρ c main_arg15 (by decide))

end Cert.Gcn.KStage

end
-- ==== Proof.KReg0.lean ====
/-
  Region 0 — the plain tiled product — as one whole-array function.

  The grid has ten points; point `t` reads rows `5000 t … 5000 t + 4999` of the left array (all 256 columns),
  the whole weight matrix, and writes back the product of the two as rows `5000 t … 5000 t + 4999` of the
  output.  Row `r`, column `c` of a block product depends on row `r` of the block only, so what point `t` writes
  is block `t` of ONE function of the two whole arrays: the full product.  The ten blocks tile the output
  (row `r` lies in block `r / 5000`), hence the output array ends holding the full product.

  The region is stated at ANY contents `V` of the buffers on entry, as the generated frame states it.
-/
import proofs.«121795_j15281493639201_1_alg».proof.Proof.Gen.KernelIdeal.Frame
import proofs.«121795_j15281493639201_1_alg».proof.Proof.KPay
import Idealize.ShloMosaic.Lib.Pipeline.Value

set_option maxRecDepth 16384

noncomputable section

namespace Cert.Gcn.KReg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a 50000 × 256 array with a 256 × 256 matrix, index by index. -/
def prod (X : S50000x256.Idx → EReal) (W : S256x256.Idx → EReal) : S50000x256.Idx → EReal :=
  fun i => ∑ k : Fin 256, X (ix2 (n0 := 50000) (n1 := 256) ⟨(i 0).val, (i 0).isLt⟩ k) * W (ix2 (n0 := 256) (n1 := 256) k ⟨(i 1).val, (i 1).isLt⟩)

/-- The printed index maps over the grid: the left window's row block moves with the output's, every other block
    index is zero, and the output's row block index is at most 9. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the full product of the arrays as the region finds them. -/
theorem flushed_eq (c : Dev nD) (t : Fin cfg0.N) :
    (dat0 V c).flushed 2 t = ((cfg0.win 2).blk t).view.read (Elt Ideal)
      (prod (V c main_arg0 : S50000x256.Idx → EReal) (V c main_v28 : S256x256.Idx → EReal)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k0_pay1 (iblk0 V c 0 t) (iblk0 V c 1 t) (ix2 p q)
    = prod (V c main_arg0 : S50000x256.Idx → EReal) (V c main_v28 : S256x256.Idx → EReal) (((cfg0.win 2).blk t).view.emb (ix2 p q))
  refine (KPay.pay0_apply _ _ p q).trans ?_
  unfold prod
  refine Finset.sum_congr rfl fun k _ => ?_
  have hx : iblk0 V c 0 t (ix2 p k) = (V c main_arg0 : S50000x256.Idx → EReal)
      (ix2 (n0 := 50000) (n1 := 256) ⟨((((cfg0.win 2).blk t).view.emb (ix2 p q)) 0).val, ((((cfg0.win 2).blk t).view.emb (ix2 p q)) 0).isLt⟩ k) := by
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : iblk0 V c 1 t (ix2 k q) = (V c main_v28 : S256x256.Idx → EReal)
      (ix2 (n0 := 256) (n1 := 256) k ⟨((((cfg0.win 2).blk t).view.emb (ix2 p q)) 1).val, ((((cfg0.win 2).blk t).view.emb (ix2 p q)) 1).isLt⟩) := by
    show V c main_v28 (((cfg0.win 1).blk t).view.emb (ix2 k q)) = V c main_v28 _
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [hx, hw]

/-- An index of the output is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v29).slice (win0_2.rect t)).set ↔ _
  rw [View.set_slice_whole, Rect.mem_set_unit]
  exact Iff.rfl

/-- The ten row blocks cover the output. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the region: the full product of the two arrays as the region finds them. -/
theorem final (c : Dev nD) : (dat0 V c).arrAt 2 cfg0.N
    = prod (V c main_arg0 : S50000x256.Idx → EReal) (V c main_v28 : S256x256.Idx → EReal) :=
  (dat0 V c).arrAt_eq_of_cover 2 _ (fun t _ => flushed_eq V c t) (cover)

end Cert.Gcn.KReg0

end
-- ==== Proof.KReg1.lean ====
/-
  Region 1 — batch-norm, rectifier and tiled product — as one whole-array function.

  The grid has ten points; point `t` reads rows `5000 t … 5000 t + 4999` of the activation array (all 256
  columns), the one-row scale and shift arrays and the whole weight matrix, and writes back
  `max (x * scale + shift) 0` times the weights as rows `5000 t … 5000 t + 4999` of the output.  An output element
  depends on its own row of the block only, so what point `t` writes is block `t` of ONE function of the whole
  arrays, and the ten blocks tile the output (row `r` lies in block `r / 5000`): the output array ends holding
  that function.

  The region is stated at ANY contents `V` of the buffers on entry, as the generated frame states it.
-/
import proofs.«121795_j15281493639201_1_alg».proof.Proof.Gen.KernelIdeal.Frame
import proofs.«121795_j15281493639201_1_alg».proof.Proof.KPay
import Idealize.ShloMosaic.Lib.Pipeline.Value

set_option maxRecDepth 16384

noncomputable section

namespace Cert.Gcn.KReg1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rectified affine image of a 50000 × 256 array (scale and shift one row each) times a 256 × 256 matrix,
    index by index. -/
def actProd (A : S50000x256.Idx → EReal) (sc sh : S1x256.Idx → EReal) (W : S256x256.Idx → EReal) : S50000x256.Idx → EReal :=
  fun i => ∑ k : Fin 256,
    max (A (ix2 (n0 := 50000) (n1 := 256) ⟨(i 0).val, (i 0).isLt⟩ k) * sc (ix2 (0 : Fin 1) k) + sh (ix2 (0 : Fin 1) k)) 0
      * W (ix2 (n0 := 256) (n1 := 256) k ⟨(i 1).val, (i 1).isLt⟩)

/-- The printed index maps over the grid: the activation window's row block moves with the output's, every other
    block index is zero, and the output's row block index is at most 9. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block of the output is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

set_option maxHeartbeats 2000000 in
/-- What point `t` writes back is block `t` of the whole-array function of the arrays as the region finds them. -/
theorem flushed_eq (c : Dev nD) (t : Fin cfg1.N) :
    (dat1 V c).flushed 4 t = ((cfg1.win 4).blk t).view.read (Elt Ideal)
      (actProd (V c main_v44 : S50000x256.Idx → EReal) (V c main_v51 : S1x256.Idx → EReal) (V c main_v52 : S1x256.Idx → EReal) (V c main_v53 : S256x256.Idx → EReal)) := by
  show (cfg1.win 4).cut (grid1.coords t) ((dat1 V c).after 4 t) = _
  rw [after1_4]
  unfold out1_4
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9⟩ := idx_facts t
  funext j
  obtain ⟨p, q, rfl⟩ : ∃ (p : Fin 5000) (q : Fin 256), j = ix2 p q := ⟨j 0, j 1, eq_ix2 j⟩
  show k1_pay1 (iblk1 V c 0 t) (iblk1 V c 1 t) (iblk1 V c 2 t) (iblk1 V c 3 t) (ix2 p q)
    = actProd (V c main_v44 : S50000x256.Idx → EReal) (V c main_v51 : S1x256.Idx → EReal) (V c main_v52 : S1x256.Idx → EReal) (V c main_v53 : S256x256.Idx → EReal) (((cfg1.win 4).blk t).view.emb (ix2 p q))
  refine (KPay.pay1_apply _ _ _ _ p q).trans ?_
  unfold actProd
  refine Finset.sum_congr rfl fun k _ => ?_
  have hx : iblk1 V c 0 t (ix2 p k) = (V c main_v44 : S50000x256.Idx → EReal)
      (ix2 (n0 := 50000) (n1 := 256) ⟨((((cfg1.win 4).blk t).view.emb (ix2 p q)) 0).val, ((((cfg1.win 4).blk t).view.emb (ix2 p q)) 0).isLt⟩ k) := by
    show V c main_v44 (((cfg1.win 0).blk t).view.emb (ix2 p k)) = V c main_v44 _
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 256 + 1 * k.val = k.val; omega
  have hsc : iblk1 V c 1 t (ix2 (0 : Fin 1) k) = (V c main_v51 : S1x256.Idx → EReal) (ix2 (0 : Fin 1) k) := by
    show V c main_v51 (((cfg1.win 1).blk t).view.emb (ix2 (0 : Fin 1) k)) = V c main_v51 _
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  have hsh : iblk1 V c 2 t (ix2 (0 : Fin 1) k) = (V c main_v52 : S1x256.Idx → EReal) (ix2 (0 : Fin 1) k) := by
    show V c main_v52 (((cfg1.win 2).blk t).view.emb (ix2 (0 : Fin 1) k)) = V c main_v52 _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  have hw : iblk1 V c 3 t (ix2 k q) = (V c main_v53 : S256x256.Idx → EReal)
      (ix2 (n0 := 256) (n1 := 256) k ⟨((((cfg1.win 4).blk t).view.emb (ix2 p q)) 1).val, ((((cfg1.win 4).blk t).view.emb (ix2 p q)) 1).isLt⟩) := by
    show V c main_v53 (((cfg1.win 3).blk t).view.emb (ix2 k q)) = V c main_v53 _
    refine congrArg _ (funext fun a => Fin.ext ?_)
    match a with
    | ⟨0, _⟩ => show win1_3.index t (0 : Fin 2) * 256 + 1 * k.val = k.val; omega
    | ⟨1, _⟩ => show win1_3.index t (1 : Fin 2) * 256 + 1 * q.val = win1_4.index t (1 : Fin 2) * 256 + 1 * q.val; omega
  rw [hx, hsc, hsh, hw]

/-- An index of the output is in point `t`'s block iff each coordinate is in the block's range on its axis. -/
theorem mem_blk (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v54).slice (win1_4.rect t)).set ↔ _
  rw [View.set_slice_whole, Rect.mem_set_unit]
  exact Iff.rfl

/-- The ten row blocks cover the output. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- The output array after the region: the whole-array function of the arrays as the region finds them. -/
theorem final (c : Dev nD) : (dat1 V c).arrAt 4 cfg1.N
    = actProd (V c main_v44 : S50000x256.Idx → EReal) (V c main_v51 : S1x256.Idx → EReal) (V c main_v52 : S1x256.Idx → EReal) (V c main_v53 : S256x256.Idx → EReal) :=
  (dat1 V c).arrAt_eq_of_cover 4 _ (fun t _ => flushed_eq V c t) (cover)

end Cert.Gcn.KReg1

end
-- ==== Proof.AffineLaw.lean ====
/-
  The one law of the extended reals that joins the two programs.

  A batch-norm layer in inference form is an affine map per channel.  One program applies it as
  `a * s + (b - m * s)` (scale and shift folded beforehand), the other as `(a - m) * s + b`.  When the
  scale `s`, the mean `m` and the offset `b` are real numbers the two agree for EVERY extended real `a`:
  for a real `a` this is the ring identity, and for `a = ±∞` both sides are `±∞`, `∓∞` or `b` according to
  the sign of `s` (the real summand `b - m * s` never meets an opposite infinity).

  Also here: the reciprocal square root of a positive real is a real.
-/
import Idealize.ShloMosaic.PureOps.Ideal

noncomputable section

namespace Cert.Gcn

open Idealize.ShloMosaic

/-- `a * s + (b - m * s) = (a - m) * s + b` on the extended reals, for real `s`, `m`, `b` and any `a`. -/
theorem affine_fold (a : EReal) (s m b : ℝ) :
    a * (s : EReal) + ((b : EReal) - (m : EReal) * (s : EReal)) = (a - (m : EReal)) * (s : EReal) + (b : EReal) := by
  have hr : ((b : EReal) - (m : EReal) * (s : EReal)) = ((b - m * s : ℝ) : EReal) := by
    rw [EReal.coe_sub, EReal.coe_mul]
  rw [hr]
  induction a using EReal.rec with
  | bot =>
    rw [EReal.bot_sub]
    rcases lt_trichotomy s 0 with h | h | h
    · rw [EReal.bot_mul_coe_of_neg h, EReal.top_add_coe, EReal.top_add_coe]
    · subst h
      rw [EReal.coe_zero, mul_zero, zero_add, zero_add]
      simp
    · rw [EReal.bot_mul_coe_of_pos h, EReal.bot_add, EReal.bot_add]
  | coe a =>
    rw [← EReal.coe_mul, ← EReal.coe_add, ← EReal.coe_sub, ← EReal.coe_mul, ← EReal.coe_add]
    congr 1
    ring
  | top =>
    rw [EReal.top_sub_coe]
    rcases lt_trichotomy s 0 with h | h | h
    · rw [EReal.top_mul_coe_of_neg h, EReal.bot_add, EReal.bot_add]
    · subst h
      rw [EReal.coe_zero, mul_zero, zero_add, zero_add]
      simp
    · rw [EReal.top_mul_coe_of_pos h, EReal.top_add_coe, EReal.top_add_coe]

/-- The reciprocal square root of a positive real is the real `(√r)⁻¹`. -/
theorem rsqrt_pos_real {r : ℝ} (h : 0 < r) : Ideal.rsqrt (r : EReal) = (((Real.sqrt r)⁻¹ : ℝ) : EReal) := by
  rw [Ideal.rsqrt_coe, if_neg (not_lt.mpr h.le), if_neg (ne_of_gt h)]

end Cert.Gcn

end
-- ==== Proof.Consts.lean ====
/-
  The one float literal the bridge has to evaluate: the batch-norm epsilon.

  Both programs add the single-precision word `0x3727C5AC` (the nearest float to 1e-5) to the variance before the
  reciprocal square root.  The word has sign 0, biased exponent 110 and fraction `0x27C5AC`, so it denotes
  `(2^23 + 0x27C5AC) * 2^(110 - 127 - 23) = 10995116 / 2^40`, a positive real.  Positivity is all that is used:
  a non-negative variance plus this number is positive, so its reciprocal square root is a real number.
-/
import Idealize.ShloMosaic.PureOps.Ideal

noncomputable section

namespace Cert.Gcn.Consts

open Idealize.ShloMosaic

/-- The epsilon's value. -/
def eps : ℝ := 10995116 / 2 ^ 40

theorem eps_pos : 0 < eps := by unfold eps; positivity

/-- The epsilon's word denotes `eps`. -/
theorem ofBits_eps : Ideal.ofBits .f32 0x3727C5AC#32 = ((eps : ℝ) : EReal) := by
  unfold eps
  simp [Ideal.ofBits, Ideal.ieee, -EReal.coe_mul]; norm_num

end Cert.Gcn.Consts

end
-- ==== Proof.BNBridge.lean ====
/-
  One batch-norm layer, both ways, element by element.

  The reference normalises an activation `a` of channel `k` as `(a - μ_k) * (γ_k * rsqrt (σ²_k + ε)) + β_k` and then
  rectifies.  The kernel program folds the layer beforehand into a per-channel scale `γ_k * rsqrt (σ²_k + ε)` and a shift
  `β_k - μ_k * scale_k`, handed to the kernel as two one-row arrays, and the kernel computes `max (a * scale_k + shift_k) 0`.
  When `γ_k`, `β_k`, `μ_k` are real numbers and `σ²_k` is a non-negative real, `σ²_k + ε` is a positive real, its reciprocal
  square root is a real, so the scale is a real and the two forms agree for every extended real `a` (the law
  `affine_fold`).

  Here: the reference's layer and the kernel program's scale and shift as whole-array terms of the parameter arrays, each
  read at an index, and the element-wise agreement.
-/
import proofs.«121795_j15281493639201_1_alg».proof.Proof.Gen.KernelIdeal
import proofs.«121795_j15281493639201_1_alg».proof.Proof.Gen.ReferenceIdeal
import proofs.«121795_j15281493639201_1_alg».proof.Proof.AffineLaw
import proofs.«121795_j15281493639201_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.BN

open Idealize.ShloMosaic Idealize.ShloMosaic.ValueIdx

/-! ## The kernel program's folded scale and shift -/

section Kernel
open Cert.KernelIdeal Cert.KernelIdeal.Facts₀

/-- The scale row: `γ * rsqrt (σ² + ε)`, recast to one row. -/
def kScale (g v : FVec Ideal S256 .f32) : FVec Ideal S1x256 .f32 :=
  shapeCast S1x256 (mulf g (Host.rsqrt (addf v (broadcastInDim S256 ![] bcast_S_S256 (constant (F := Ideal) S_ .f32 0x3727C5AC#32))))) shapeCasts_S256_S1x256

/-- The shift row: `β - μ * scale`, recast to one row. -/
def kShift (be mu g v : FVec Ideal S256 .f32) : FVec Ideal S1x256 .f32 :=
  shapeCast S1x256 (subf be (mulf mu (mulf g (Host.rsqrt (addf v (broadcastInDim S256 ![] bcast_S_S256 (constant (F := Ideal) S_ .f32 0x3727C5AC#32))))))) shapeCasts_S256_S1x256

theorem eps_bcast_apply (k : Fin 256) :
    broadcastInDim S256 ![] bcast_S_S256 (constant (F := Ideal) S_ .f32 0x3727C5AC#32) (ix1 k) = Ideal.ofBits .f32 0x3727C5AC#32 :=
  broadcastInDim_apply _ bcast_S_S256 _ (ix1 k) ix0 (fun a => a.elim0)

theorem kScale_apply (g v : FVec Ideal S256 .f32) (k : Fin 256) :
    kScale g v (ix2 (0 : Fin 1) k) = g (ix1 k) * Ideal.rsqrt (v (ix1 k) + Ideal.ofBits .f32 0x3727C5AC#32) := by
  unfold kScale
  rw [shapeCast_a_1a_apply]
  show g (ix1 k) * Ideal.rsqrt (v (ix1 k) + broadcastInDim S256 ![] bcast_S_S256 (constant (F := Ideal) S_ .f32 0x3727C5AC#32) (ix1 k)) = _
  rw [eps_bcast_apply]

theorem kShift_apply (be mu g v : FVec Ideal S256 .f32) (k : Fin 256) :
    kShift be mu g v (ix2 (0 : Fin 1) k)
      = be (ix1 k) - mu (ix1 k) * (g (ix1 k) * Ideal.rsqrt (v (ix1 k) + Ideal.ofBits .f32 0x3727C5AC#32)) := by
  unfold kShift
  rw [shapeCast_a_1a_apply]
  show be (ix1 k) - mu (ix1 k) * (g (ix1 k) * Ideal.rsqrt (v (ix1 k) + broadcastInDim S256 ![] bcast_S_S256 (constant (F := Ideal) S_ .f32 0x3727C5AC#32) (ix1 k))) = _
  rw [eps_bcast_apply]

end Kernel

/-! ## The reference's layer -/

section Reference
open Cert.ReferenceIdeal Cert.ReferenceIdeal.Facts₀

/-- A per-channel vector spread over the rows of a 50000 × 256 array. -/
abbrev rows (x : FVec Ideal S256 .f32) : FVec Ideal S50000x256 .f32 :=
  broadcastInDim S50000x256 ![0, 1] bcast_S1x256_S50000x256_0_1 (broadcastInDim S1x256 ![1] bcast_S256_S1x256_1 x)

theorem rows_apply (x : FVec Ideal S256 .f32) (r : Fin 50000) (k : Fin 256) : rows x (ix2 r k) = x (ix1 k) := by
  unfold rows
  rw [broadcastInDim_apply _ bcast_S1x256_S50000x256_0_1 _ (ix2 r k) (ix2 (0 : Fin 1) k) (fun a => match a with
    | ⟨0, _⟩ => by show 0 = if (1 : Nat) = 1 then 0 else r.val; rw [if_pos rfl]
    | ⟨1, _⟩ => by show k.val = if (256 : Nat) = 1 then 0 else k.val; rw [if_neg (by decide)])]
  exact broadcastInDim_apply _ bcast_S256_S1x256_1 x (ix2 (0 : Fin 1) k) (ix1 k) (fun a => match a with
    | ⟨0, _⟩ => by show k.val = if (256 : Nat) = 1 then 0 else k.val; rw [if_neg (by decide)])

/-- The reference's batch-norm and rectifier of an activation array `A`: the operations of its program, in order. -/
def refBN (A : FVec Ideal S50000x256 .f32) (g be mu v : FVec Ideal S256 .f32) : FVec Ideal S50000x256 .f32 :=
  maximumf (addf (mulf (subf A (rows mu))
      (rows (mulf g (Host.rsqrt (addf v (broadcastInDim S256 ![] bcast_S_S256 (constant (F := Ideal) S_ .f32 0x3727C5AC#32)))))))
    (rows be))
    (broadcastInDim S50000x256 ![] bcast_S_S50000x256 (constant (F := Ideal) S_ .f32 0x00000000#32))

theorem refBN_apply (A : FVec Ideal S50000x256 .f32) (g be mu v : FVec Ideal S256 .f32) (r : Fin 50000) (k : Fin 256) :
    refBN A g be mu v (ix2 r k)
      = max ((A (ix2 r k) - mu (ix1 k)) * (g (ix1 k) * Ideal.rsqrt (v (ix1 k) + Ideal.ofBits .f32 0x3727C5AC#32)) + be (ix1 k)) 0 := by
  unfold refBN
  show max ((A (ix2 r k) - rows mu (ix2 r k)) * rows (mulf g (Host.rsqrt (addf v (broadcastInDim S256 ![] bcast_S_S256 (constant (F := Ideal) S_ .f32 0x3727C5AC#32))))) (ix2 r k) + rows be (ix2 r k))
      (broadcastInDim S50000x256 ![] bcast_S_S50000x256 (constant (F := Ideal) S_ .f32 0x00000000#32) (ix2 r k)) = _
  rw [rows_apply, rows_apply, rows_apply,
    broadcastInDim_apply _ bcast_S_S50000x256 (constant (F := Ideal) S_ .f32 0x00000000#32) (ix2 r k) ix0 (fun a => a.elim0)]
  show max ((A (ix2 r k) - mu (ix1 k)) * (g (ix1 k) * Ideal.rsqrt (v (ix1 k) + broadcastInDim S256 ![] bcast_S_S256 (constant (F := Ideal) S_ .f32 0x3727C5AC#32) (ix1 k))) + be (ix1 k))
      (Ideal.ofBits .f32 0x00000000#32) = _
  rw [broadcastInDim_apply _ bcast_S_S256 (constant (F := Ideal) S_ .f32 0x3727C5AC#32) (ix1 k) ix0 (fun a => a.elim0), Ideal.ofBits_zero_f32]
  rfl

end Reference

/-! ## The two agree -/

/-- Per channel: real parameters with a non-negative variance. -/
def RealParams (g be mu v : FVec Ideal Cert.KernelIdeal.S256 .f32) : Prop :=
  ∀ k : Fin 256, ∃ g' b' mu' v' : ℝ, g (ix1 k) = (g' : EReal) ∧ be (ix1 k) = (b' : EReal) ∧ mu (ix1 k) = (mu' : EReal) ∧ v (ix1 k) = (v' : EReal) ∧ 0 ≤ v'

/-- The kernel's rectified affine form of an element is the reference's normalised and rectified element. -/
theorem act_eq (A : FVec Ideal Cert.ReferenceIdeal.S50000x256 .f32) (g be mu v : FVec Ideal Cert.KernelIdeal.S256 .f32) (h : RealParams g be mu v)
    (r : Fin 50000) (k : Fin 256) :
    max (A (ix2 r k) * kScale g v (ix2 (0 : Fin 1) k) + kShift be mu g v (ix2 (0 : Fin 1) k)) 0 = refBN A g be mu v (ix2 r k) := by
  obtain ⟨g', b', mu', v', hg, hb, hm, hv, hv0⟩ := h k
  rw [kScale_apply, kShift_apply, refBN_apply, hg, hb, hm, hv, Consts.ofBits_eps, ← EReal.coe_add,
    rsqrt_pos_real (add_pos_of_nonneg_of_pos hv0 Consts.eps_pos), ← EReal.coe_mul, affine_fold]

end Cert.Gcn.BN

end
-- ==== Proof.KStage1.lean ====
/-
  The first graph-convolution layer of the kernel program, stage by stage, as the reference's own stage terms.

  Region 0 leaves the product of the node features with the first weight matrix: the reference's `dot_general` of the
  same two arrays, both being the textbook contraction at the exact-real instance.  The second host stretch gathers that
  product along the source list, weighs it, scatter-adds it along the destination list and adds the bias: the reference's
  operations on the reference's operands, so the aggregated array is the reference's.  The same stretch folds the first
  batch-norm into a scale row and a shift row.  Region 1 then leaves `max (agg * scale + shift) 0` times the second
  weight matrix, which — the batch-norm parameters being real with non-negative variance — is the reference's
  `dot_general` of its normalised, rectified aggregate with the same matrix.
-/
import proofs.«121795_j15281493639201_1_alg».proof.Proof.Gen.KernelIdeal.Frame
import proofs.«121795_j15281493639201_1_alg».proof.Proof.Gen.ReferenceIdeal.Read
import proofs.«121795_j15281493639201_1_alg».proof.Proof.KKeep
import proofs.«121795_j15281493639201_1_alg».proof.Proof.KReg0
import proofs.«121795_j15281493639201_1_alg».proof.Proof.KReg1
import proofs.«121795_j15281493639201_1_alg».proof.Proof.KStage0
import proofs.«121795_j15281493639201_1_alg».proof.Proof.BNBridge

set_option maxRecDepth 16384

noncomputable section

namespace Cert.Gcn.KStage

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

/-! ## Index constructors: the reference's spelling is the literal one -/

theorem lidx28 (i : Cert.ReferenceIdeal.S50000x256.Idx) (k : Fin 256) :
    lidx_main_v28 i k = ix2 (n0 := 50000) (n1 := 256) ⟨(i 0).val, (i 0).isLt⟩ k :=
  funext fun a => match a with | ⟨0, _⟩ => rfl | ⟨1, _⟩ => rfl
theorem ridx28 (i : Cert.ReferenceIdeal.S50000x256.Idx) (k : Fin 256) :
    ridx_main_v28 i k = ix2 (n0 := 256) (n1 := 256) k ⟨(i 1).val, (i 1).isLt⟩ :=
  funext fun a => match a with | ⟨0, _⟩ => rfl | ⟨1, _⟩ => rfl

/-! ## Region 0 -/

/-- The tiled product is the reference's `dot_general`. -/
theorem prod_eq (x0 : FVec Ideal S50000x256 .f32) (x2 : FVec Ideal S256x256 .f32) (hlt : FTy.bf16.bits < FTy.f32.bits) :
    KReg0.prod x0 (truncf .bf16 x2 hlt : FVec Ideal S256x256 .bf16) = val_main_v28 (F := Ideal) x0 x2 := by
  funext i
  rw [val_main_v28_apply]
  unfold KReg0.prod
  refine Finset.sum_congr rfl fun k _ => ?_
  rw [lidx28, ridx28]
  rfl

variable (m : (ℓ : Loc nD τ sig) → Buf (Elt Ideal) ℓ) (ρ : Dev nD → PrngReg) (c : Dev nD)

/-- Region 0's output array is the reference's first product. -/
theorem k_v29 : W2 m ρ c (Proc.devRef .tc main_v29) = val_main_v28 (F := Ideal) (m ((c.tc : Thread nD τ).loc main_arg0)) (m ((c.tc : Thread nD τ).loc main_arg2)) := by
  refine (W2_arr m ρ c 2).trans ((KReg0.final (V1 m ρ) c).trans ?_)
  rw [show V1 m ρ c main_arg0 = (m ((c.tc : Thread nD τ).loc main_arg0)) from w1_arg0 m ρ c, show V1 m ρ c main_v28 = _ from w1_v28 m ρ c]
  exact prod_eq _ _ _

/-! ## The second host stretch -/

set_option maxHeartbeats 4000000 in
/-- The aggregated first layer, before the batch-norm. -/
theorem k_v44 : W3 m ρ c (Proc.devRef .tc main_v44) = val_main_v43 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W2 m ρ c) (Proc.devRef .tc main_v44) = _
  after_results_simp
  rw [k_v29 m ρ c, e2_v3 m ρ c, e2_v6 m ρ c, e2_v27 m ρ c, e2_arg3 m ρ c]
  rfl

set_option maxHeartbeats 4000000 in
/-- The first batch-norm's scale row. -/
theorem k_v51 : W3 m ρ c (Proc.devRef .tc main_v51) = BN.kScale (m ((c.tc : Thread nD τ).loc main_arg4)) (m ((c.tc : Thread nD τ).loc main_arg7)) := by
  show StableHlo.after hostOps1 (W2 m ρ c) (Proc.devRef .tc main_v51) = _
  after_results_simp
  rw [e2_arg4 m ρ c, e2_arg7 m ρ c]
  rfl

set_option maxHeartbeats 4000000 in
/-- The first batch-norm's shift row. -/
theorem k_v52 : W3 m ρ c (Proc.devRef .tc main_v52) = BN.kShift (m ((c.tc : Thread nD τ).loc main_arg5)) (m ((c.tc : Thread nD τ).loc main_arg6)) (m ((c.tc : Thread nD τ).loc main_arg4)) (m ((c.tc : Thread nD τ).loc main_arg7)) := by
  show StableHlo.after hostOps1 (W2 m ρ c) (Proc.devRef .tc main_v52) = _
  after_results_simp
  rw [e2_arg4 m ρ c, e2_arg5 m ρ c, e2_arg6 m ρ c, e2_arg7 m ρ c]
  rfl

set_option maxHeartbeats 4000000 in
/-- The second weight matrix after its change of format. -/
theorem k_v53 : W3 m ρ c (Proc.devRef .tc main_v53)
    = (truncf .bf16 ((m ((c.tc : Thread nD τ).loc main_arg8)) : FVec Ideal S256x256 .f32) Facts₀.bitsLt_bf16_f32 : FVec Ideal S256x256 .bf16) := by
  show StableHlo.after hostOps1 (W2 m ρ c) (Proc.devRef .tc main_v53) = _
  after_results_simp
  rw [e2_arg8 m ρ c]

/-! ## Region 1 -/

/-- The kernel's rectified affine image times the weights is the reference's `dot_general` of its batch-normed, rectified
    array with the same weights. -/
theorem layer1_eq (A : FVec Ideal S50000x256 .f32) (g be mu v : FVec Ideal S256 .f32) (W : FVec Ideal S256x256 .f32)
    (h : BN.RealParams g be mu v) (hlt : FTy.bf16.bits < FTy.f32.bits) :
    KReg1.actProd A (BN.kScale g v) (BN.kShift be mu g v) (truncf .bf16 W hlt : FVec Ideal S256x256 .bf16)
      = val_main_v28 (F := Ideal) (BN.refBN A g be mu v) W := by
  funext i
  rw [val_main_v28_apply]
  unfold KReg1.actProd
  refine Finset.sum_congr rfl fun k _ => ?_
  rw [lidx28, ridx28, BN.act_eq A g be mu v h]
  rfl

/-- Region 1's output array is the reference's second product. -/
theorem k_v54 (hP : BN.RealParams (m ((c.tc : Thread nD τ).loc main_arg4)) (m ((c.tc : Thread nD τ).loc main_arg5)) (m ((c.tc : Thread nD τ).loc main_arg6)) (m ((c.tc : Thread nD τ).loc main_arg7))) :
    W4 m ρ c (Proc.devRef .tc main_v54) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 4).trans ((KReg1.final (V3 m ρ) c).trans ?_)
  rw [show V3 m ρ c main_v44 = _ from k_v44 m ρ c, show V3 m ρ c main_v51 = _ from k_v51 m ρ c,
    show V3 m ρ c main_v52 = _ from k_v52 m ρ c, show V3 m ρ c main_v53 = _ from k_v53 m ρ c]
  exact layer1_eq _ _ _ _ _ _ hP _

end Cert.Gcn.KStage

end
-- ==== Proof.KStage2.lean ====
/-
  The second graph-convolution layer of the kernel program, stage by stage, as the reference's own stage terms.

  The third host stretch aggregates region 1's product along the graph and adds the second bias — the reference's
  operations on the reference's operands — and folds the second batch-norm into a scale row and a shift row.  Region 2
  leaves `max (agg * scale + shift) 0` times the third weight matrix, which, the second batch-norm's parameters being
  real with non-negative variance, is the reference's `dot_general` of its normalised, rectified aggregate with the same
  matrix (256 × 128 this time).  The last host stretch aggregates that once more and adds the last bias: the result.
-/
import proofs.«121795_j15281493639201_1_alg».proof.Proof.Gen.KernelIdeal.Frame
import proofs.«121795_j15281493639201_1_alg».proof.Proof.Gen.ReferenceIdeal.Read
import proofs.«121795_j15281493639201_1_alg».proof.Proof.KKeep
import proofs.«121795_j15281493639201_1_alg».proof.Proof.KReg2
import proofs.«121795_j15281493639201_1_alg».proof.Proof.KStage0
import proofs.«121795_j15281493639201_1_alg».proof.Proof.KStage1
import proofs.«121795_j15281493639201_1_alg».proof.Proof.BNBridge

set_option maxRecDepth 16384

noncomputable section

namespace Cert.Gcn.KStage

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

/-! ## The host's product with a 256 × 128 matrix, read at an index -/

theorem lidx88 (i : Cert.ReferenceIdeal.S50000x128.Idx) (k : Fin 256) :
    lidx_main_v88 i k = ix2 (n0 := 50000) (n1 := 256) ⟨(i 0).val, (i 0).isLt⟩ k :=
  funext fun a => match a with | ⟨0, _⟩ => rfl | ⟨1, _⟩ => rfl
theorem ridx88 (i : Cert.ReferenceIdeal.S50000x128.Idx) (k : Fin 256) :
    ridx_main_v88 i k = ix2 (n0 := 256) (n1 := 128) k ⟨(i 1).val, (i 1).isLt⟩ :=
  funext fun a => match a with | ⟨0, _⟩ => rfl | ⟨1, _⟩ => rfl

/-- The reference's `dot_general` of a 50000 × 256 array with a 256 × 128 matrix is the sum over the contracted index. -/
theorem dotB_apply (Y : FVec Ideal Cert.ReferenceIdeal.S50000x256 .f32) (W : FVec Ideal Cert.ReferenceIdeal.S256x128 .f32) (i : Cert.ReferenceIdeal.S50000x128.Idx) :
    Host.dotGeneral Cert.ReferenceIdeal.dot_S50000x256_S256x128_S50000x128_1_0_0_1_n_n none Y W i
      = ∑ k : Fin 256, Y (lidx_main_v88 i k) * W (ridx_main_v88 i k) := by
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = lidx_main_v88 i k := funext fun a => Fin.ext (by
    match a with
    | ⟨0, _⟩ => exact lhs_main_v88_0 _ _
    | ⟨1, _⟩ => exact (lhs_main_v88_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = ridx_main_v88 i k := funext fun a => Fin.ext (by
    match a with
    | ⟨0, _⟩ => exact (rhs_main_v88_0 _ _).trans hk
    | ⟨1, _⟩ => exact rhs_main_v88_1 _ _)
  rw [el, er]

variable (m : (ℓ : Loc nD τ sig) → Buf (Elt Ideal) ℓ) (ρ : Dev nD → PrngReg) (c : Dev nD)

/-! ## The third host stretch -/

set_option maxHeartbeats 4000000 in
/-- The aggregated second layer, before the batch-norm. -/
theorem k_v69 (hP1 : BN.RealParams (m ((c.tc : Thread nD τ).loc main_arg4)) (m ((c.tc : Thread nD τ).loc main_arg5)) (m ((c.tc : Thread nD τ).loc main_arg6)) (m ((c.tc : Thread nD τ).loc main_arg7))) :
    W5 m ρ c (Proc.devRef .tc main_v69) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v69) = _
  after_results_simp
  rw [k_v54 m ρ c hP1, e4_v3 m ρ c, e4_v6 m ρ c, e4_v27 m ρ c, e4_arg9 m ρ c]
  rfl

set_option maxHeartbeats 4000000 in
/-- The second batch-norm's scale row. -/
theorem k_v76 : W5 m ρ c (Proc.devRef .tc main_v76) = BN.kScale (m ((c.tc : Thread nD τ).loc main_arg10)) (m ((c.tc : Thread nD τ).loc main_arg13)) := by
  show StableHlo.after hostOps2 (W4 m ρ c) (Proc.devRef .tc main_v76) = _
  after_results_simp
  rw [e4_arg10 m ρ c, e4_arg13 m ρ c]
  rfl

set_option maxHeartbeats 4000000 in
/-- The second batch-norm's shift row. -/
theorem k_v77 : W5 m ρ c (Proc.devRef .tc main_v77) = BN.kShift (m ((c.tc : Thread nD τ).loc main_arg11)) (m ((c.tc : Thread nD τ).loc main_arg12)) (m ((c.tc : Thread nD τ).loc main_arg10)) (m ((c.tc : Thread nD τ).loc main_arg13)) := by
  show StableHlo.after hostOps2 (W4 m ρ c) (Proc.devRef .tc main_v77) = _
  after_results_simp
  rw [e4_arg10 m ρ c, e4_arg11 m ρ c, e4_arg12 m ρ c, e4_arg13 m ρ c]
  rfl

set_option maxHeartbeats 4000000 in
/-- The third weight matrix after its change of format. -/
theorem k_v78 : W5 m ρ c (Proc.devRef .tc main_v78)
    = (truncf .bf16 ((m ((c.tc : Thread nD τ).loc main_arg14)) : FVec Ideal S256x128 .f32) Facts₀.bitsLt_bf16_f32 : FVec Ideal S256x128 .bf16) := by
  show StableHlo.after hostOps2 (W4 m ρ c) (Proc.devRef .tc main_v78) = _
  after_results_simp
  rw [e4_arg14 m ρ c]

/-! ## Region 2 -/

/-- The kernel's rectified affine image times the 256 × 128 weights is the reference's `dot_general` of its batch-normed,
    rectified array with the same weights. -/
theorem layer2_eq (A : FVec Ideal S50000x256 .f32) (g be mu v : FVec Ideal S256 .f32) (W : FVec Ideal S256x128 .f32)
    (h : BN.RealParams g be mu v) (hlt : FTy.bf16.bits < FTy.f32.bits) :
    KReg2.actProd A (BN.kScale g v) (BN.kShift be mu g v) (truncf .bf16 W hlt : FVec Ideal S256x128 .bf16)
      = Host.dotGeneral Cert.ReferenceIdeal.dot_S50000x256_S256x128_S50000x128_1_0_0_1_n_n none (BN.refBN A g be mu v) W := by
  funext i
  rw [dotB_apply]
  unfold KReg2.actProd
  refine Finset.sum_congr rfl fun k _ => ?_
  rw [lidx88, ridx88, BN.act_eq A g be mu v h]
  rfl

/-- Region 2's output array is the reference's third product. -/
theorem k_v79 (hP1 : BN.RealParams (m ((c.tc : Thread nD τ).loc main_arg4)) (m ((c.tc : Thread nD τ).loc main_arg5)) (m ((c.tc : Thread nD τ).loc main_arg6)) (m ((c.tc : Thread nD τ).loc main_arg7))) (hP2 : BN.RealParams (m ((c.tc : Thread nD τ).loc main_arg10)) (m ((c.tc : Thread nD τ).loc main_arg11)) (m ((c.tc : Thread nD τ).loc main_arg12)) (m ((c.tc : Thread nD τ).loc main_arg13))) :
    W6 m ρ c (Proc.devRef .tc main_v79) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W6_arr m ρ c 4).trans ((KReg2.final (V5 m ρ) c).trans ?_)
  rw [show V5 m ρ c main_v69 = _ from k_v69 m ρ c hP1, show V5 m ρ c main_v76 = _ from k_v76 m ρ c,
    show V5 m ρ c main_v77 = _ from k_v77 m ρ c, show V5 m ρ c main_v78 = _ from k_v78 m ρ c]
  exact layer2_eq _ _ _ _ _ _ hP2 _

/-! ## The last host stretch -/

set_option maxHeartbeats 4000000 in
/-- The result: the aggregated third layer plus its bias, the reference's last stage. -/
theorem k_v94 (hP1 : BN.RealParams (m ((c.tc : Thread nD τ).loc main_arg4)) (m ((c.tc : Thread nD τ).loc main_arg5)) (m ((c.tc : Thread nD τ).loc main_arg6)) (m ((c.tc : Thread nD τ).loc main_arg7))) (hP2 : BN.RealParams (m ((c.tc : Thread nD τ).loc main_arg10)) (m ((c.tc : Thread nD τ).loc main_arg11)) (m ((c.tc : Thread nD τ).loc main_arg12)) (m ((c.tc : Thread nD τ).loc main_arg13))) :
    W7 m ρ c (Proc.devRef .tc main_v94) = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show StableHlo.after hostOps3 (W6 m ρ c) (Proc.devRef .tc main_v94) = _
  after_results_simp
  rw [k_v79 m ρ c hP1 hP2, e6_v3 m ρ c, e6_v6 m ρ c, e6_v27 m ρ c, e6_arg15 m ρ c]
  rfl

end Cert.Gcn.KStage

end
-- ==== Proof.PreFacts.lean ====
/-
  The precondition `finite_inputs` is a conjunction of one-bit scalars: for each floating-point argument x the
  statement "every entry of |x| is below +∞", and, last, "every entry of argument 7 is at least 0" and "every
  entry of argument 13 is at least 0". Each statement is a reduction by `and` of an elementwise comparison, so the
  conjunction being 1 gives every comparison at every index.

  Over the extended reals |x| = max x (-x), and the pattern 0x7F800000 denotes ⊤. Since max ⊥ (-⊥) = max ⊤ (-⊤) = ⊤,
  the comparison max x (-x) < ⊤ holds exactly when x is a real number. The pattern 0x00000000 denotes 0, so the
  comparison 0 ≤ x read at a real x is 0 ≤ x in ℝ.

  Extracted here, for the two groups of four rank-1 arguments (4, 5, 6, 7) and (10, 11, 12, 13) of extent 256: at each
  index k the four entries are real numbers, and the last of the four (arguments 7 and 13) is nonnegative.
-/
import proofs.«121795_j15281493639201_1_alg».proof.Pre_finite_inputs
import proofs.«121795_j15281493639201_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Gcn.PreFacts

open Idealize.ShloMosaic Cert.Pre_finite_inputs

/-- The scalar shape has one index. -/
instance subsingletonScalarIdx : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- On the extended reals, max a (-a) < ⊤ only at a real number: at ⊥ and at ⊤ the maximum is ⊤. -/
theorem real_of_abs_lt_top (a : EReal) (h : Ideal.cmp .olt (max a (-a)) (⊤ : EReal) = 1#1) : ∃ r : ℝ, a = (r : EReal) := by
  have h' : max a (-a) < (⊤ : EReal) := by simpa [Ideal.cmp, ofBool_eq_one] using h
  induction a using EReal.rec with
  | bot => simp at h'
  | top => simp at h'
  | coe r => exact ⟨r, rfl⟩

/-- The comparison 0 ≤ a that came out 1, read at a real number. -/
theorem nonneg_of_cmp_oge (v : ℝ) (h : Ideal.cmp .oge (v : EReal) (0 : EReal) = 1#1) : 0 ≤ v := by
  have h' : (0 : EReal) ≤ (v : EReal) := by simpa [Ideal.cmp, ofBool_eq_one] using h
  exact EReal.coe_nonneg.mp h'

/-- The +∞ constant broadcast to extent 256, read at an index. -/
theorem inf_bcast_apply (k : Fin 256) :
    broadcastInDim S256 ![] Facts.bcast_S_S256 (constant (F := Ideal) S_ .f32 0x7F800000#32) (ValueIdx.ix1 k) = (⊤ : EReal) := by
  refine (broadcastInDim_apply _ _ _ (ValueIdx.ix1 k) ValueIdx.ix0 (fun a => a.elim0)).trans ?_
  exact ofBits_inf

/-- The zero constant broadcast to extent 256, read at an index. -/
theorem zero_bcast_apply (k : Fin 256) :
    broadcastInDim S256 ![] Facts.bcast_S_S256 (constant (F := Ideal) S_ .f32 0x00000000#32) (ValueIdx.ix1 k) = (0 : EReal) := by
  refine (broadcastInDim_apply _ _ _ (ValueIdx.ix1 k) ValueIdx.ix0 (fun a => a.elim0)).trans ?_
  exact Ideal.ofBits_zero_f32

/-- "Every entry of |x| is below +∞", for a rank-1 argument of extent 256: every entry of x is a real number. -/
theorem real_of_all (x : FVec Ideal S256 .f32)
    (h : Host.reduce IntOp.andi
          (cmpf .olt (Host.absf x) (broadcastInDim S256 ![] Facts.bcast_S_S256 (constant (F := Ideal) S_ .f32 0x7F800000#32)))
          (constantI S_ 1 1#1) Facts.reducesTo_S256_S_d0 Facts.h_S_ ValueIdx.ix0 = 1#1)
    (k : Fin 256) : ∃ r : ℝ, x (ValueIdx.ix1 k) = (r : EReal) := by
  have e := Host.reduce_andi_all _ _ _ _ _ h (ValueIdx.ix1 k)
  have e' : Ideal.cmp .olt (max (x (ValueIdx.ix1 k)) (-(x (ValueIdx.ix1 k))))
      (broadcastInDim S256 ![] Facts.bcast_S_S256 (constant (F := Ideal) S_ .f32 0x7F800000#32) (ValueIdx.ix1 k)) = 1#1 := e
  rw [inf_bcast_apply k] at e'
  exact real_of_abs_lt_top _ e'

/-- "Every entry of x is at least 0", for a rank-1 argument of extent 256, read at an entry that is a real number. -/
theorem nonneg_of_all (x : FVec Ideal S256 .f32)
    (h : Host.reduce IntOp.andi
          (cmpf .oge x (broadcastInDim S256 ![] Facts.bcast_S_S256 (constant (F := Ideal) S_ .f32 0x00000000#32)))
          (constantI S_ 1 1#1) Facts.reducesTo_S256_S_d0 Facts.h_S_ ValueIdx.ix0 = 1#1)
    (k : Fin 256) (v : ℝ) (hv : x (ValueIdx.ix1 k) = (v : EReal)) : 0 ≤ v := by
  have e := Host.reduce_andi_all _ _ _ _ _ h (ValueIdx.ix1 k)
  have e' : Ideal.cmp .oge (x (ValueIdx.ix1 k))
      (broadcastInDim S256 ![] Facts.bcast_S_S256 (constant (F := Ideal) S_ .f32 0x00000000#32) (ValueIdx.ix1 k)) = 1#1 := e
  rw [zero_bcast_apply k, hv] at e'
  exact nonneg_of_cmp_oge v e'

/-- THE PRECONDITION DECODED: at every index the entries of arguments 4, 5, 6, 7 are real numbers and the entry of
    argument 7 is nonnegative; the same for arguments 10, 11, 12, 13. The conjuncts for the other arguments are not
    used. -/
theorem of_pre (a0 : FVec Ideal S50000x256 .f32) (a1 : IVec S2x800000 32) (a2 : FVec Ideal S256x256 .f32)
    (a3 a4 a5 a6 a7 : FVec Ideal S256 .f32) (a8 : FVec Ideal S256x256 .f32) (a9 a10 a11 a12 a13 : FVec Ideal S256 .f32)
    (a14 : FVec Ideal S256x128 .f32) (a15 : FVec Ideal S128 .f32)
    (h : Cert.Pre_finite_inputs.fn (F := Ideal) a0 a1 a2 a3 a4 a5 a6 a7 a8 a9 a10 a11 a12 a13 a14 a15 = fun _ => 1#1) :
    (∀ k : Fin 256, ∃ g b mu v : ℝ, a4 (ValueIdx.ix1 k) = (g : EReal) ∧ a5 (ValueIdx.ix1 k) = (b : EReal) ∧ a6 (ValueIdx.ix1 k) = (mu : EReal) ∧ a7 (ValueIdx.ix1 k) = (v : EReal) ∧ 0 ≤ v)
    ∧ (∀ k : Fin 256, ∃ g b mu v : ℝ, a10 (ValueIdx.ix1 k) = (g : EReal) ∧ a11 (ValueIdx.ix1 k) = (b : EReal) ∧ a12 (ValueIdx.ix1 k) = (mu : EReal) ∧ a13 (ValueIdx.ix1 k) = (v : EReal) ∧ 0 ≤ v) := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨-, h4⟩, h5⟩, h6⟩, h7⟩, -⟩, -⟩, h10⟩, h11⟩, h12⟩, h13⟩, -⟩, -⟩, p7⟩, p13⟩ := e
  refine ⟨fun k => ?_, fun k => ?_⟩
  · obtain ⟨g, hg⟩ := real_of_all a4 h4 k
    obtain ⟨b, hb⟩ := real_of_all a5 h5 k
    obtain ⟨mu, hmu⟩ := real_of_all a6 h6 k
    obtain ⟨v, hv⟩ := real_of_all a7 h7 k
    exact ⟨g, b, mu, v, hg, hb, hmu, hv, nonneg_of_all a7 p7 k v hv⟩
  · obtain ⟨g, hg⟩ := real_of_all a10 h10 k
    obtain ⟨b, hb⟩ := real_of_all a11 h11 k
    obtain ⟨mu, hmu⟩ := real_of_all a12 h12 k
    obtain ⟨v, hv⟩ := real_of_all a13 h13 k
    exact ⟨g, b, mu, v, hg, hb, hmu, hv, nonneg_of_all a13 p13 k v hv⟩

end Cert.Gcn.PreFacts

end
-- ==== Proof.lean ====
/-
  A three-layer graph convolution network (self loops and symmetric normalisation of the adjacency, batch-norm in
  inference form and a rectifier between the layers), as a kernel program and as a plain reference, computes ONE function of
  its sixteen arguments over the extended reals — provided the batch-norm parameters are real numbers and the two running
  variances are non-negative.

  Both programs build, from the edge list, the source and destination lists with self loops and the per-edge weight
  `deg(src)^(-1/2) * deg(dst)^(-1/2)` by the same operations, and aggregate each layer by the same gather, weighting,
  scatter-add and bias.  They differ in two places only.  The dense products are tiled over ten row blocks by the kernels,
  against one `dot_general` each in the reference: at the exact-real instance both are the textbook contraction, and the ten
  blocks tile the output.  And the batch-norm between two layers is applied by the reference as `(a - μ) * s + β` with
  `s = γ * rsqrt (σ² + ε)`, but folded by the kernel program into `a * s + (β - μ * s)`: equal for every extended real `a`
  once `s`, `μ`, `β` are real, which holds when `γ`, `β`, `μ`, `σ²` are finite and `σ² ≥ 0` (then `σ² + ε > 0`).
  Outside that domain the claim fails: at `σ² = -ε` the scale is infinite, and `∞ + (β - ∞)` and `(a - μ) * ∞ + β` differ.

  The frames of the two kernel programs are the generated ones; the reference's frame is its generated run with the result
  dropped; no operation was rewritten by the idealization, so there is nothing to preserve.  The value claim chains the
  modules beside this one: the kernel program's run with its result buffer named (`KRun`), the result buffer's contents walked
  back through the seven segments to the reference's own stage terms (`KStage0` … `KStage2`, over `KReg0` … `KReg2`, `KPay`,
  `KMatmul`, `KKeep`, `BNBridge`, `AffineLaw`, `Consts`), and the precondition decoded (`PreFacts`).
-/
import proofs.«121795_j15281493639201_1_alg».proof.Defs
import proofs.«121795_j15281493639201_1_alg».proof.Proof.Gen.Kernel
import proofs.«121795_j15281493639201_1_alg».proof.Proof.Gen.Kernel.Skeleton
import proofs.«121795_j15281493639201_1_alg».proof.Proof.Gen.Kernel.Launch
import proofs.«121795_j15281493639201_1_alg».proof.Proof.Gen.Kernel.Points
import proofs.«121795_j15281493639201_1_alg».proof.Proof.Gen.Kernel.Frame
import proofs.«121795_j15281493639201_1_alg».proof.Proof.Gen.KernelIdeal
import proofs.«121795_j15281493639201_1_alg».proof.Proof.Gen.KernelIdeal.Skeleton
import proofs.«121795_j15281493639201_1_alg».proof.Proof.Gen.KernelIdeal.Launch
import proofs.«121795_j15281493639201_1_alg».proof.Proof.Gen.KernelIdeal.Points
import proofs.«121795_j15281493639201_1_alg».proof.Proof.Gen.KernelIdeal.Frame
import proofs.«121795_j15281493639201_1_alg».proof.Proof.Gen.ReferenceIdeal
import proofs.«121795_j15281493639201_1_alg».proof.Proof.Gen.ReferenceIdeal.Run
import proofs.«121795_j15281493639201_1_alg».proof.Proof.Gen.ReferenceIdeal.Read
import proofs.«121795_j15281493639201_1_alg».proof.Proof.Gen.Pre_finite_inputs
import proofs.«121795_j15281493639201_1_alg».proof.Proof.KRun
import proofs.«121795_j15281493639201_1_alg».proof.Proof.KStage2
import proofs.«121795_j15281493639201_1_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition both batch-norms' parameters are real numbers and both variances are non-negative. -/
theorem params_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Gcn.BN.RealParams (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ Cert.Gcn.BN.RealParams (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) :=
  Cert.Gcn.PreFacts.of_pre _ _ _ _ _ _ _ _ _ _ _ _ _ _ _ _ (hpre c)

/-- Both idealized programs end with the reference's last stage term of the arguments in their result buffers. -/
theorem algebraic : Cert.algebraic_KernelIdeal_ReferenceIdeal := by
  intro m ρ m' ρ' hpre hagree
  refine ⟨fun c => Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩) (Cert.KernelIdeal.Hand.run_result m ρ)
    obtain ⟨h1, h2⟩ := params_of_pre m hpre c
    exact Cert.Gcn.KStage.k_v94 m ρ c h1 h2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
